-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x2048 : Shape := ⟨3, ![64, 256, 2048]⟩
abbrev S256x2048 : Shape := ⟨2, ![256, 2048]⟩
abbrev S2048x256 : Shape := ⟨2, ![2048, 256]⟩
abbrev S_ : Shape := ⟨0, ![]⟩

class Facts : Prop where
  bcast_S_S64x256x2048 : S_.BroadcastsInDim S64x256x2048 (![] : Fin 0 → Fin S64x256x2048.rank)
  reducesTo_S64x256x2048_S_d0_1_2 : S64x256x2048.ReducesTo [0, 1, 2] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S64x256x2048 .f32) (main_arg1 : FVec F S256x2048 .f32) (main_arg2 : FVec F S2048x256 .f32) : IVec S_ 1 :=
  let main_v0 : FVec F S64x256x2048 .f32 := Host.absf main_arg0
  let main_cst : FVec F S_ .f32 := constant S_ .f32 0x7F800000#32
  let main_v1 : FVec F S64x256x2048 .f32 := broadcastInDim S64x256x2048 ![] bcast_S_S64x256x2048 main_cst
  let main_v2 : IVec S64x256x2048 1 := cmpf .olt main_v0 main_v1
  let main_c : IVec S_ 1 := constantI S_ 1 1#1
  let main_v3 : IVec S_ 1 := (fun x v => Host.reduce IntOp.andi x v reducesTo_S64x256x2048_S_d0_1_2 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  main_v13
-- ==== Kernel.lean ====
abbrev S64x256x2048 : Shape := ⟨3, ![64, 256, 2048]⟩
abbrev S256x2048 : Shape := ⟨2, ![256, 2048]⟩
abbrev S2048x256 : Shape := ⟨2, ![2048, 256]⟩
abbrev S1x256x2048 : Shape := ⟨3, ![1, 256, 2048]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S64x256x2048, .f32⟩
  | .hbm, ⟨1, _⟩ => ⟨S256x2048, .f32⟩
  | .hbm, ⟨2, _⟩ => ⟨S2048x256, .f32⟩
  | .hbm, ⟨3, _⟩ => ⟨S64x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S2048x256, .f32⟩
  | .local _ .vmem, ⟨4, _⟩ => ⟨S1x256x2048, .f32⟩
  | .local _ .vmem, ⟨5, _⟩ => ⟨S1x256x2048, .f32⟩
  | _, _ => ⟨S64x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S256x2048_S256x2048_0_0 : ∀ a, (![0, 0] : Fin 2 → Nat) a + S256x2048.size a ≤ S256x2048.size a
  h_S256x2048 : 0 < S256x2048.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  transposes_S256x2048_p1_0_S2048x256 : S256x2048.Transposes [1, 0] S2048x256
  transposes_S2048x256_p1_0_S256x2048 : S2048x256.Transposes [1, 0] S256x2048
  iota_S256x256_d0_w32 : S256x256.Iotas .tc 32 [0]
  iota_S256x256_d1_w32 : S256x256.Iotas .tc 32 [1]
  reduces_S256x256_S256 : S256x256.Reduces [1] S256
  shapeCasts_S256_S256x1 : S256.ShapeCasts S256x1
  broadcasts_S256x1_S256x256 : S256x1.Broadcasts S256x256
  shapeCasts_S256x2048_S1x256x2048 : S256x2048.ShapeCasts S1x256x2048
  dot_S256x2048_S2048x256_S256x256_1_0_0_1_n_n_wf : DotDims.WF S256x2048 S2048x256 S256x256 [1] [0] [0] [1] [] []
  dot_S256x256_S256x2048_S256x2048_1_0_0_1_n_n_wf : DotDims.WF S256x256 S256x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S64x256x2048.size a
  hwx0_0 : ∀ i : grid0.Coords, EltTy.bits .f32 = 32 ∨ (Rect.block (s := S64x256x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .f32 = 32 ∨ (Rect.block (s := S256x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x256.size a
  hwx0_2 : ∀ i : grid0.Coords, EltTy.bits .f32 = 32 ∨ (Rect.block (s := S2048x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S64x256x2048.size a
  hwx0_3 : ∀ i : grid0.Coords, EltTy.bits .f32 = 32 ∨ (Rect.block (s := S64x256x2048) S1x256x2048.size (cc0_transform_3 i) (hinb0_3 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x2048 : Shape := ⟨3, ![64, 256, 2048]⟩
abbrev S256x2048 : Shape := ⟨2, ![256, 2048]⟩
abbrev S2048x256 : Shape := ⟨2, ![2048, 256]⟩
abbrev S64x256x256 : Shape := ⟨3, ![64, 256, 256]⟩
abbrev S_ : Shape := ⟨0, ![]⟩
abbrev S256x256 : Shape := ⟨2, ![256, 256]⟩
abbrev S64x256 : Shape := ⟨2, ![64, 256]⟩
abbrev S64x256x1 : Shape := ⟨3, ![64, 256, 1]⟩

abbrev nBuf : Space → Nat
  | .hbm => 40
  | .vmem => 0
  | .smem => 0
  | _ => 0

abbrev bufTy : (tb : Table) → Fin (tcTables nBuf tb) → BufTy
  | .hbm, ⟨0, _⟩ => ⟨S64x256x2048, .f32⟩
  | .hbm, ⟨1, _⟩ => ⟨S256x2048, .f32⟩
  | .hbm, ⟨2, _⟩ => ⟨S2048x256, .f32⟩
  | .hbm, ⟨3, _⟩ => ⟨S64x256x256, .f32⟩
  | .hbm, ⟨4, _⟩ => ⟨S64x256x2048, .f32⟩
  | .hbm, ⟨5, _⟩ => ⟨S64x256x256, .f32⟩
  | .hbm, ⟨6, _⟩ => ⟨S_, .f32⟩
  | .hbm, ⟨7, _⟩ => ⟨S64x256x256, .f32⟩
  | .hbm, ⟨8, _⟩ => ⟨S64x256x256, .f32⟩
  | .hbm, ⟨9, _⟩ => ⟨S_, .i1⟩
  | .hbm, ⟨10, _⟩ => ⟨S256x256, .i1⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S256x256, .i32⟩
  | .hbm, ⟨16, _⟩ => ⟨S256x256, .i1⟩
  | .hbm, ⟨17, _⟩ => ⟨S_, .i1⟩
  | .hbm, ⟨18, _⟩ => ⟨S256x256, .i1⟩
  | .hbm, ⟨19, _⟩ => ⟨S256x256, .i1⟩
  | .hbm, ⟨20, _⟩ => ⟨S_, .f32⟩
  | .hbm, ⟨21, _⟩ => ⟨S_, .f32⟩
  | .hbm, ⟨22, _⟩ => ⟨S64x256x256, .i1⟩
  | .hbm, ⟨23, _⟩ => ⟨S64x256x256, .f32⟩
  | .hbm, ⟨24, _⟩ => ⟨S64x256x256, .f32⟩
  | .hbm, ⟨25, _⟩ => ⟨S_, .f32⟩
  | .hbm, ⟨26, _⟩ => ⟨S64x256, .f32⟩
  | .hbm, ⟨27, _⟩ => ⟨S_, .f32⟩
  | .hbm, ⟨28, _⟩ => ⟨S64x256, .f32⟩
  | .hbm, ⟨29, _⟩ => ⟨S64x256, .f32⟩
  | .hbm, ⟨30, _⟩ => ⟨S64x256x1, .f32⟩
  | .hbm, ⟨31, _⟩ => ⟨S64x256x256, .f32⟩
  | .hbm, ⟨32, _⟩ => ⟨S64x256x256, .f32⟩
  | .hbm, ⟨33, _⟩ => ⟨S64x256x256, .f32⟩
  | .hbm, ⟨34, _⟩ => ⟨S_, .f32⟩
  | .hbm, ⟨35, _⟩ => ⟨S64x256, .f32⟩
  | .hbm, ⟨36, _⟩ => ⟨S64x256x1, .f32⟩
  | .hbm, ⟨37, _⟩ => ⟨S64x256x256, .f32⟩
  | .hbm, ⟨38, _⟩ => ⟨S64x256x256, .f32⟩
  | .hbm, ⟨39, _⟩ => ⟨S64x256x2048, .f32⟩
  | _, _ => ⟨S64x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v6 : Ref sig .tc := ⟨.hbm, 19, rfl⟩
abbrev main_cst_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]

class Facts₀ : Prop where
  bcast_S_S64x256x256 : S_.BroadcastsInDim S64x256x256 (![] : Fin 0 → Fin S64x256x256.rank)
  bcast_S_S256x256 : S_.BroadcastsInDim S256x256 (![] : Fin 0 → Fin S256x256.rank)
  bcast_S256x256_S64x256x256_1_2 : S256x256.BroadcastsInDim S64x256x256 (![1, 2] : Fin 2 → Fin S64x256x256.rank)
  reducesTo_S64x256x256_S64x256_d2 : S64x256x256.ReducesTo [2] S64x256
  h_S_ : 0 < S_.numel
  bcast_S_S64x256 : S_.BroadcastsInDim S64x256 (![] : Fin 0 → Fin S64x256.rank)
  bcast_S64x256_S64x256x1_0_1 : S64x256.BroadcastsInDim S64x256x1 (![0, 1] : Fin 2 → Fin S64x256x1.rank)
  bcast_S64x256x1_S64x256x256_0_1_2 : S64x256x1.BroadcastsInDim S64x256x256 (![0, 1, 2] : Fin 3 → Fin S64x256x256.rank)
  dot_S64x256x2048_S256x2048_S64x256x256_2_1_01_0_n_n_wf : DotDims.WF S64x256x2048 S256x2048 S64x256x256 [2] [1] [0, 1] [0] [] []
  dot_S64x256x256_S2048x256_S64x256x2048_2_1_01_0_n_n_wf : DotDims.WF S64x256x256 S2048x256 S64x256x2048 [2] [1] [0, 1] [0] [] []
  dot_S64x256x2048_S64x256x2048_S64x256x256_2_2_1_1_0_0_wf : DotDims.WF S64x256x2048 S64x256x2048 S64x256x256 [2] [2] [1] [1] [0] [0]
  dot_S64x256x256_S64x256x2048_S64x256x2048_2_1_1_2_0_0_wf : DotDims.WF S64x256x256 S64x256x2048 S64x256x2048 [2] [1] [1] [2] [0] [0]

variable [Facts₀]

def dot_S64x256x2048_S256x2048_S64x256x256_2_1_01_0_n_n : DotDims S64x256x2048 S256x2048 S64x256x256 where
  lhsContracting := [2]
  rhsContracting := [1]
  lhsNonContracting := [0, 1]
  rhsNonContracting := [0]
  lhsBatch := []
  rhsBatch := []
  wf := dot_S64x256x2048_S256x2048_S64x256x256_2_1_01_0_n_n_wf
def dot_S64x256x256_S2048x256_S64x256x2048_2_1_01_0_n_n : DotDims S64x256x256 S2048x256 S64x256x2048 where
  lhsContracting := [2]
  rhsContracting := [1]
  lhsNonContracting := [0, 1]
  rhsNonContracting := [0]
  lhsBatch := []
  rhsBatch := []
  wf := dot_S64x256x256_S2048x256_S64x256x2048_2_1_01_0_n_n_wf
def dot_S64x256x2048_S64x256x2048_S64x256x256_2_2_1_1_0_0 : DotDims S64x256x2048 S64x256x2048 S64x256x256 where
  lhsContracting := [2]
  rhsContracting := [2]
  lhsNonContracting := [1]
  rhsNonContracting := [1]
  lhsBatch := [0]
  rhsBatch := [0]
  wf := dot_S64x256x2048_S64x256x2048_S64x256x256_2_2_1_1_0_0_wf
def dot_S64x256x256_S64x256x2048_S64x256x2048_2_1_1_2_0_0 : DotDims S64x256x256 S64x256x2048 S64x256x2048 where
  lhsContracting := [2]
  rhsContracting := [1]
  lhsNonContracting := [1]
  rhsNonContracting := [2]
  lhsBatch := [0]
  rhsBatch := [0]
  wf := dot_S64x256x256_S64x256x2048_S64x256x2048_2_1_1_2_0_0_wf

class Facts : Prop extends Facts₀ where

variable [Facts]
-- ==== Proof.Attention.lean ====
/-
  The function both programs compute: causal self-attention whose queries are the inputs projected twice and whose
  keys and values are the inputs themselves, over the extended reals.

  Matrices are functions of two coordinates. Two products are used: `mulT A B` contracts the SECOND coordinates of
  both factors (A times B transposed), `mul A B` the second of A with the first of B. For one sequence `X` (256
  positions of 2048 features), a projection `Wq` (256 × 2048) and a second one `Wkt` (2048 × 256):
    proj   = mulT X Wq                 (each position in the 256 projected features)
    query  = mulT proj Wkt             (back to 2048 features)
    dots   = mulT query X              (position t against position s: the keys are the inputs)
    masked = scaleMask dots            (dots · σ where s ≤ t, −∞ elsewhere; σ the scale's word, read exactly; the
                                        comparison is the one of the two 32-bit position words)
    weight = softmax masked            (row t: exp (masked t s − rowMax t) over the row's sum of these exponentials,
                                        rowMax t the maximum of the row taken from −∞ and once more against −∞)
    attend = mul weight X              (the values are the inputs)
  The whole result stacks this over the 64 sequences: entry (b, t, m) is `attend` of sequence b.
  Every sum here is a sum over a finite index set, so its order is no part of it; no other algebraic law is used
  anywhere, and the scale and −∞ stay the words the two programs share.
-/
import Idealize.ShloMosaic.PureOps.Ideal
import Idealize.ShloMosaic.Lib.ValueIdx

noncomputable section

open scoped BigOperators

namespace Cert.Attention

open Idealize.ShloMosaic Idealize.ShloMosaic.ValueIdx

/-! ## Matrices as functions of two coordinates -/

/-- `A` times `B` transposed: entry `(i, j)` sums `A i k · B j k` over the shared second coordinate. -/
def mulT {a b c : ℕ} (A : Fin a → Fin c → EReal) (B : Fin b → Fin c → EReal) : Fin a → Fin b → EReal :=
  fun i j => ∑ k : Fin c, A i k * B j k

/-- `A` times `B`: entry `(i, j)` sums `A i k · B k j`. -/
def mul {a b c : ℕ} (A : Fin a → Fin c → EReal) (B : Fin c → Fin b → EReal) : Fin a → Fin b → EReal :=
  fun i j => ∑ k : Fin c, A i k * B k j

/-- The causal bit: position `s` is not after position `t`, as the signed comparison of the two position words. -/
def causal (t s : Fin 256) : BitVec 1 := IntOp.cmpi .sge (BitVec.ofNat 32 t.val) (BitVec.ofNat 32 s.val)

/-- Scale every entry by the scale's word and keep it where the causal bit is set, −∞ elsewhere. -/
def scaleMask (D : Fin 256 → Fin 256 → EReal) : Fin 256 → Fin 256 → EReal :=
  fun t s => Scalar.select (causal t s) (D t s * Ideal.ofBits .f32 0x3CB504F3#32) (Ideal.ofBits .f32 0xFF800000#32)

/-- Row `t`'s maximum (taken from −∞, and once more against −∞, as both programs do). -/
def rowMax (M : Fin 256 → Fin 256 → EReal) (t : Fin 256) : EReal :=
  max (Ideal.ofBits .f32 0xFF800000#32)
    ((Finset.univ : Finset (Fin 256)).fold max (Ideal.ofBits .f32 0xFF800000#32) fun s => M t s)

/-- The exponential of an entry shifted by its row's maximum. -/
def expo (M : Fin 256 → Fin 256 → EReal) (t s : Fin 256) : EReal := Ideal.exp (M t s - rowMax M t)

/-- The row-wise softmax: each shifted exponential over its row's sum of them. -/
def softmax (M : Fin 256 → Fin 256 → EReal) : Fin 256 → Fin 256 → EReal :=
  fun t s => Ideal.div (expo M t s) (∑ s' : Fin 256, expo M t s')

/-! ## One sequence -/

section OneSequence

variable (X : Fin 256 → Fin 2048 → EReal) (Wq : Fin 256 → Fin 2048 → EReal) (Wkt : Fin 2048 → Fin 256 → EReal)

/-- The first projection: position `t` in projected feature `k`. -/
def proj : Fin 256 → Fin 256 → EReal := mulT X Wq

/-- The second projection, back to the model's features: the queries. -/
def query : Fin 256 → Fin 2048 → EReal := mulT (proj X Wq) Wkt

/-- Each query against each input position (the keys are the inputs). -/
def dots : Fin 256 → Fin 256 → EReal := mulT (query X Wq Wkt) X

/-- The scaled, causally masked scores. -/
def masked : Fin 256 → Fin 256 → EReal := scaleMask (dots X Wq Wkt)

/-- The attention weights. -/
def weight : Fin 256 → Fin 256 → EReal := softmax (masked X Wq Wkt)

/-- The attended values: the weights applied to the inputs (the values are the inputs). -/
def attend : Fin 256 → Fin 2048 → EReal := mul (weight X Wq Wkt) X

end OneSequence

/-! ## The stacked result -/

/-- Sequence `b` of the stacked input, by coordinates. -/
def seq (x : (⟨3, ![64, 256, 2048]⟩ : Shape).Idx → EReal) (b : Fin 64) : Fin 256 → Fin 2048 → EReal :=
  fun t c => x (ix3 b t c)

/-- A matrix by coordinates. -/
def mat {a b : ℕ} (w : (⟨2, ![a, b]⟩ : Shape).Idx → EReal) : Fin a → Fin b → EReal := fun i j => w (ix2 i j)

/-- THE RESULT, as one function of the three argument arrays: entry `(b, t, m)` is `attend` of sequence `b`. -/
def result (x : (⟨3, ![64, 256, 2048]⟩ : Shape).Idx → EReal) (wq : (⟨2, ![256, 2048]⟩ : Shape).Idx → EReal)
    (wkt : (⟨2, ![2048, 256]⟩ : Shape).Idx → EReal) : (⟨3, ![64, 256, 2048]⟩ : Shape).Idx → EReal :=
  fun i => attend (seq x (i 0)) (mat wq) (mat wkt) (i 1) (i 2)

theorem result_apply (x : (⟨3, ![64, 256, 2048]⟩ : Shape).Idx → EReal) (wq : (⟨2, ![256, 2048]⟩ : Shape).Idx → EReal)
    (wkt : (⟨2, ![2048, 256]⟩ : Shape).Idx → EReal) (b : Fin 64) (t : Fin 256) (m : Fin 2048) :
    result x wq wkt (ix3 b t m) = attend (seq x b) (mat wq) (mat wkt) t m := rfl

end Cert.Attention

end
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.KernelPayload.lean ====
/-
  The kernel body's value at one entry: what the body stores for a block, read at row `t` and feature `m`, is
  `Attention.attend` of the block's sequence.

  The body works on one sequence (its block of the stacked input, with a leading unit axis) and the two whole
  projection matrices. Read as matrices (functions of two coordinates), each of its steps is one of the specification's:
  a matrix product into zero whose second operand is transposed is `mulT`, one whose second operand is not is `mul`
  (a change of float format is the identity on extended reals); the select between the scaled scores and −∞ on
  "row position ≥ column position" is `scaleMask`; the row maximum kept as a column and broadcast back, the
  exponential of the difference, its row sum kept as a column and broadcast back, and the quotient are `softmax`.
-/
import proofs.«106704_j49632642072718_1_alg».proof.Proof.Gen.KernelIdeal.Skeleton
import proofs.«106704_j49632642072718_1_alg».proof.Proof.Attention
import proofs.«106704_j49632642072718_1_alg».proof.Proof.LibLayout
import proofs.«106704_j49632642072718_1_alg».proof.Proof.LibRows
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The exponential of a vector, at an index. -/
theorem exp_apply {s : Shape} {φ : FTy} (v : FVec Ideal s φ) (i : s.Idx) : exp v i = Ideal.exp (v i) := rfl

/-- An integer comparison of two vectors, at an index. -/
theorem cmpi_apply {s : Shape} {w : ℕ} (p : CmpIPredicate) (a b : IVec s w) (i : s.Idx) :
    cmpi p a b i = IntOp.cmpi p (a i) (b i) := rfl

/-! ## The two shapes of matrix product the body uses, each read at an entry -/

theorem wide_lhs_0 (i : S256x256.Idx) (q : dot_S256x2048_S2048x256_S256x256_1_0_0_1_n_n.contr.Idx) :
    (dot_S256x2048_S2048x256_S256x256_1_0_0_1_n_n.lhsIdx i q 0).val = (i 0).val := by
  unfold DotDims.lhsIdx
  rw [dif_neg (show ¬(0 : Fin S256x2048.rank) ∈ dot_S256x2048_S2048x256_S256x256_1_0_0_1_n_n.lhsBatch by decide), dif_pos (show (0 : Fin S256x2048.rank) ∈ dot_S256x2048_S2048x256_S256x256_1_0_0_1_n_n.lhsNonContracting by decide)]
  rfl
theorem wide_lhs_1 (i : S256x256.Idx) (q : dot_S256x2048_S2048x256_S256x256_1_0_0_1_n_n.contr.Idx) :
    (dot_S256x2048_S2048x256_S256x256_1_0_0_1_n_n.lhsIdx i q 1).val = (q ⟨0, by decide⟩).val :=
  dot_S256x2048_S2048x256_S256x256_1_0_0_1_n_n.lhsIdx_val_of_single rfl i q
theorem wide_rhs_0 (i : S256x256.Idx) (q : dot_S256x2048_S2048x256_S256x256_1_0_0_1_n_n.contr.Idx) :
    (dot_S256x2048_S2048x256_S256x256_1_0_0_1_n_n.rhsIdx i q 0).val = (q ⟨0, by decide⟩).val :=
  dot_S256x2048_S2048x256_S256x256_1_0_0_1_n_n.rhsIdx_val_of_single rfl i q
theorem wide_rhs_1 (i : S256x256.Idx) (q : dot_S256x2048_S2048x256_S256x256_1_0_0_1_n_n.contr.Idx) :
    (dot_S256x2048_S2048x256_S256x256_1_0_0_1_n_n.rhsIdx i q 1).val = (i 1).val := by
  unfold DotDims.rhsIdx
  rw [dif_neg (show ¬(1 : Fin S2048x256.rank) ∈ dot_S256x2048_S2048x256_S256x256_1_0_0_1_n_n.rhsBatch by decide), dif_pos (show (1 : Fin S2048x256.rank) ∈ dot_S256x2048_S2048x256_S256x256_1_0_0_1_n_n.rhsNonContracting by decide)]
  rfl

/-- A [256, 2048] by [2048, 256] product into zero, at `(p, q)`: the sum over the 2048 contracted coordinates. -/
theorem wide_apply {φ₁ φ₂ : FTy} (l : FVec Ideal S256x2048 φ₁) (r : FVec Ideal S2048x256 φ₂) (p : Fin 256) (q : Fin 256) :
    matmul dot_S256x2048_S2048x256_S256x256_1_0_0_1_n_n none l r (constant S256x256 .f32 0x00000000#32) (ix2 p q)
      = ∑ k : Fin 2048, l (ix2 p k) * r (ix2 k q) := by
  show FloatOps.matmul _ _ _ _ _ _ = _
  rw [Ideal.matmul_constant_zero_apply, ← Equiv.sum_comp (contrEquiv1 dot_S256x2048_S2048x256_S256x256_1_0_0_1_n_n 2048 rfl rfl).symm]
  refine Finset.sum_congr rfl fun k _ => ?_
  have hk := contrEquiv1_symm_val dot_S256x2048_S2048x256_S256x256_1_0_0_1_n_n 2048 rfl rfl k
  have el : dot_S256x2048_S2048x256_S256x256_1_0_0_1_n_n.lhsIdx (ix2 p q) ((contrEquiv1 dot_S256x2048_S2048x256_S256x256_1_0_0_1_n_n 2048 rfl rfl).symm k) = ix2 p k := funext fun a => Fin.ext (by
    match a with
    | ⟨0, _⟩ => exact wide_lhs_0 _ _
    | ⟨1, _⟩ => exact (wide_lhs_1 _ _).trans hk)
  have er : dot_S256x2048_S2048x256_S256x256_1_0_0_1_n_n.rhsIdx (ix2 p q) ((contrEquiv1 dot_S256x2048_S2048x256_S256x256_1_0_0_1_n_n 2048 rfl rfl).symm k) = ix2 k q := funext fun a => Fin.ext (by
    match a with
    | ⟨0, _⟩ => exact (wide_rhs_0 _ _).trans hk
    | ⟨1, _⟩ => exact wide_rhs_1 _ _)
  rw [el, er]

theorem tall_lhs_0 (i : S256x2048.Idx) (q : dot_S256x256_S256x2048_S256x2048_1_0_0_1_n_n.contr.Idx) :
    (dot_S256x256_S256x2048_S256x2048_1_0_0_1_n_n.lhsIdx i q 0).val = (i 0).val := by
  unfold DotDims.lhsIdx
  rw [dif_neg (show ¬(0 : Fin S256x256.rank) ∈ dot_S256x256_S256x2048_S256x2048_1_0_0_1_n_n.lhsBatch by decide), dif_pos (show (0 : Fin S256x256.rank) ∈ dot_S256x256_S256x2048_S256x2048_1_0_0_1_n_n.lhsNonContracting by decide)]
  rfl
theorem tall_lhs_1 (i : S256x2048.Idx) (q : dot_S256x256_S256x2048_S256x2048_1_0_0_1_n_n.contr.Idx) :
    (dot_S256x256_S256x2048_S256x2048_1_0_0_1_n_n.lhsIdx i q 1).val = (q ⟨0, by decide⟩).val :=
  dot_S256x256_S256x2048_S256x2048_1_0_0_1_n_n.lhsIdx_val_of_single rfl i q
theorem tall_rhs_0 (i : S256x2048.Idx) (q : dot_S256x256_S256x2048_S256x2048_1_0_0_1_n_n.contr.Idx) :
    (dot_S256x256_S256x2048_S256x2048_1_0_0_1_n_n.rhsIdx i q 0).val = (q ⟨0, by decide⟩).val :=
  dot_S256x256_S256x2048_S256x2048_1_0_0_1_n_n.rhsIdx_val_of_single rfl i q
theorem tall_rhs_1 (i : S256x2048.Idx) (q : dot_S256x256_S256x2048_S256x2048_1_0_0_1_n_n.contr.Idx) :
    (dot_S256x256_S256x2048_S256x2048_1_0_0_1_n_n.rhsIdx i q 1).val = (i 1).val := by
  unfold DotDims.rhsIdx
  rw [dif_neg (show ¬(1 : Fin S256x2048.rank) ∈ dot_S256x256_S256x2048_S256x2048_1_0_0_1_n_n.rhsBatch by decide), dif_pos (show (1 : Fin S256x2048.rank) ∈ dot_S256x256_S256x2048_S256x2048_1_0_0_1_n_n.rhsNonContracting by decide)]
  rfl

/-- A [256, 256] by [256, 2048] product into zero, at `(p, q)`: the sum over the 256 contracted coordinates. -/
theorem tall_apply {φ₁ φ₂ : FTy} (l : FVec Ideal S256x256 φ₁) (r : FVec Ideal S256x2048 φ₂) (p : Fin 256) (q : Fin 2048) :
    matmul dot_S256x256_S256x2048_S256x2048_1_0_0_1_n_n none l r (constant S256x2048 .f32 0x00000000#32) (ix2 p q)
      = ∑ k : Fin 256, l (ix2 p k) * r (ix2 k q) := by
  show FloatOps.matmul _ _ _ _ _ _ = _
  rw [Ideal.matmul_constant_zero_apply, ← Equiv.sum_comp (contrEquiv1 dot_S256x256_S256x2048_S256x2048_1_0_0_1_n_n 256 rfl rfl).symm]
  refine Finset.sum_congr rfl fun k _ => ?_
  have hk := contrEquiv1_symm_val dot_S256x256_S256x2048_S256x2048_1_0_0_1_n_n 256 rfl rfl k
  have el : dot_S256x256_S256x2048_S256x2048_1_0_0_1_n_n.lhsIdx (ix2 p q) ((contrEquiv1 dot_S256x256_S256x2048_S256x2048_1_0_0_1_n_n 256 rfl rfl).symm k) = ix2 p k := funext fun a => Fin.ext (by
    match a with
    | ⟨0, _⟩ => exact tall_lhs_0 _ _
    | ⟨1, _⟩ => exact (tall_lhs_1 _ _).trans hk)
  have er : dot_S256x256_S256x2048_S256x2048_1_0_0_1_n_n.rhsIdx (ix2 p q) ((contrEquiv1 dot_S256x256_S256x2048_S256x2048_1_0_0_1_n_n 256 rfl rfl).symm k) = ix2 k q := funext fun a => Fin.ext (by
    match a with
    | ⟨0, _⟩ => exact (tall_rhs_0 _ _).trans hk
    | ⟨1, _⟩ => exact tall_rhs_1 _ _)
  rw [el, er]

/-! ## The body's steps, as operations on matrices -/

open Cert.Attention (mat mulT mul scaleMask softmax rowMax expo causal)

/-- The block with its leading unit axis cast away, as a matrix: row `t`, feature `c` of the block. -/
theorem mat_block (x0 : Vec Ideal S1x256x2048 .f32) :
    mat (shapeCast S256x2048 x0 shapeCasts_S1x256x2048_S256x2048) = fun t c => x0 (ix3 (0 : Fin 1) t c) := by
  funext t c
  exact shapeCast_1ab_ab_apply x0 _ t c

/-- A [256, 2048] matrix against a [256, 2048] matrix transposed: `mulT`. -/
theorem mat_wideT (x w : FVec Ideal S256x2048 .f32) :
    mat (matmul dot_S256x2048_S2048x256_S256x256_1_0_0_1_n_n none (truncf .bf16 x bitsLt_bf16_f32)
        (transpose S2048x256 [1, 0] (truncf .bf16 w bitsLt_bf16_f32) transposes_S256x2048_p1_0_S2048x256)
        (constant S256x256 .f32 0x00000000#32))
      = mulT (mat x) (mat w) := by
  funext t k
  refine (wide_apply _ _ t k).trans (Finset.sum_congr rfl fun c _ => ?_)
  rw [transpose_ix2_apply]
  rfl

/-- A [256, 256] matrix against a [2048, 256] matrix transposed: `mulT`. -/
theorem mat_tallT (p : FVec Ideal S256x256 .f32) (w : FVec Ideal S2048x256 .f32) :
    mat (matmul dot_S256x256_S256x2048_S256x2048_1_0_0_1_n_n none (truncf .bf16 p bitsLt_bf16_f32)
        (transpose S256x2048 [1, 0] (truncf .bf16 w bitsLt_bf16_f32) transposes_S2048x256_p1_0_S256x2048)
        (constant S256x2048 .f32 0x00000000#32))
      = mulT (mat p) (mat w) := by
  funext t m
  refine (tall_apply _ _ t m).trans (Finset.sum_congr rfl fun k _ => ?_)
  rw [transpose_ix2_apply]
  rfl

/-- A [256, 256] matrix times a [256, 2048] matrix: `mul`. -/
theorem mat_tall (p : FVec Ideal S256x256 .f32) (v : FVec Ideal S256x2048 .f32) :
    mat (matmul dot_S256x256_S256x2048_S256x2048_1_0_0_1_n_n none (truncf .bf16 p bitsLt_bf16_f32)
        (truncf .bf16 v bitsLt_bf16_f32) (constant S256x2048 .f32 0x00000000#32))
      = mul (mat p) (mat v) := by
  funext t m
  exact tall_apply _ _ t m

/-- The scaled scores selected against −∞ on "row position ≥ column position": `scaleMask`. -/
theorem mat_scaleMask (D : FVec Ideal S256x256 .f32) :
    mat (select (cmpi .sge (iota .tc S256x256 32 [0] iota_S256x256_d0_w32) (iota .tc S256x256 32 [1] iota_S256x256_d1_w32))
        (mulf D (broadcast S256x256 (Scalar.ofBits (F := Ideal) .f32 0x3CB504F3#32)))
        (broadcast S256x256 (Scalar.ofBits (F := Ideal) .f32 0xFF800000#32)))
      = scaleMask (mat D) := by
  funext t s
  show Scalar.select (IntOp.cmpi .sge (iota .tc S256x256 32 [0] iota_S256x256_d0_w32 (ix2 t s))
      (iota .tc S256x256 32 [1] iota_S256x256_d1_w32 (ix2 t s))) _ _ = _
  rw [iota_single_apply, iota_single_apply]
  rfl

/-- The row maxima (from −∞, and once more against −∞) kept as a column and broadcast back over the rows. -/
abbrev rowMaxBack (M : FVec Ideal S256x256 .f32) : FVec Ideal S256x256 .f32 :=
  broadcastTo S256x256
    (shapeCast S256x1
      (maximumf (broadcast S256 (Scalar.ofBits (F := Ideal) .f32 0xFF800000#32))
        (multiReduction .maximumf [1] S256 M 0xFF800000#32 reduces_S256x256_S256 (.inl rfl) rfl))
      shapeCasts_S256_S256x1)
    broadcasts_S256x1_S256x256

/-- The row sums kept as a column and broadcast back over the rows. -/
abbrev rowSumBack (E : FVec Ideal S256x256 .f32) : FVec Ideal S256x256 .f32 :=
  broadcastTo S256x256
    (shapeCast S256x1 (multiReduction .add [1] S256 E 0x00000000#32 reduces_S256x256_S256 (.inl rfl) rfl)
      shapeCasts_S256_S256x1)
    broadcasts_S256x1_S256x256

/-- Every column of row `t` of the broadcast maxima reads the row's maximum. -/
theorem rowMaxBack_apply (M : FVec Ideal S256x256 .f32) (t s : Fin 256) : rowMaxBack M (ix2 t s) = rowMax (mat M) t := by
  refine (broadcastTo_a1_ab_apply _ broadcasts_S256x1_S256x256 t s).trans ?_
  refine (shapeCast_a_a1_apply _ shapeCasts_S256_S256x1 t (0 : Fin 1)).trans ?_
  show max _ (multiReduction .maximumf [1] S256 M 0xFF800000#32 reduces_S256x256_S256 _ _ (ix1 t)) = _
  exact congrArg (max _) (rowMax_apply M 0xFF800000#32 reduces_S256x256_S256 _ _ t)

/-- Every column of row `t` of the broadcast sums reads the row's sum. -/
theorem rowSumBack_apply (E : FVec Ideal S256x256 .f32) (t s : Fin 256) :
    rowSumBack E (ix2 t s) = ∑ s' : Fin 256, E (ix2 t s') := by
  refine (broadcastTo_a1_ab_apply _ broadcasts_S256x1_S256x256 t s).trans ?_
  refine (shapeCast_a_a1_apply _ shapeCasts_S256_S256x1 t (0 : Fin 1)).trans ?_
  exact rowSum_apply E 0x00000000#32 reduces_S256x256_S256 _ _ t

/-- Shift by the row maximum, exponentiate, divide by the row sum: `softmax`. -/
theorem mat_softmax (M : FVec Ideal S256x256 .f32) :
    mat (divf (exp (subf M (rowMaxBack M))) (rowSumBack (exp (subf M (rowMaxBack M))))) = softmax (mat M) := by
  funext t s
  have he : ∀ s' : Fin 256, exp (subf M (rowMaxBack M)) (ix2 t s') = expo (mat M) t s' := fun s' => by
    show Ideal.exp (M (ix2 t s') - rowMaxBack M (ix2 t s')) = _
    rw [rowMaxBack_apply]
    rfl
  show Ideal.div (exp (subf M (rowMaxBack M)) (ix2 t s)) (rowSumBack (exp (subf M (rowMaxBack M))) (ix2 t s)) = _
  rw [rowSumBack_apply, he s]
  exact congrArg (Ideal.div _) (Finset.sum_congr rfl fun s' _ => he s')

/-! ## The body's value at an entry -/

/-- What the body stores, at row `t` and feature `m` of its block: `attend` of the sequence the block holds, with the
    two projection matrices read by coordinates. -/
theorem payload_apply (x0 : Vec Ideal S1x256x2048 .f32) (x1 : Vec Ideal S256x2048 .f32) (x2 : Vec Ideal S2048x256 .f32)
    (t : Fin 256) (m : Fin 2048) :
    k0_pay1 (F := Ideal) x0 x1 x2 (ix3 (0 : Fin 1) t m)
      = Attention.attend (fun t c => x0 (ix3 (0 : Fin 1) t c)) (mat x1) (mat x2) t m := by
  unfold k0_pay1
  dsimp only
  refine (shapeCast_ab_1ab_apply _ shapeCasts_S256x2048_S1x256x2048 (0 : Fin 1) t m).trans ?_
  change mat _ t m = _
  rw [mat_tall, mat_softmax, mat_scaleMask, mat_wideT, mat_tallT, mat_wideT, mat_block]
  rfl

end Cert.KernelIdeal.Payload

end
-- ==== Proof.KernelArray.lean ====
/-
  From blocks to the array: after the kernel's run its result array is `Attention.result` of the three arguments.

  Grid point `t` (of 64) reads block `t` of the stacked input — sequence `t`, all 256 positions and 2048 features —
  and the two projection matrices whole, and writes block `t` of the result. So what point `t` writes back is
  `attend` of sequence `t`, which is block `t` of `Attention.result`; and the 64 blocks, one per sequence, cover
  the array: the entry `(b, t, m)` lies in the block of point `b`.
-/
import proofs.«106704_j49632642072718_1_alg».proof.Proof.Gen.KernelIdeal.Value
import proofs.«106704_j49632642072718_1_alg».proof.Proof.KernelPayload

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps, decided over the 64 grid points: the input's and the result's block index is the point on
    the sequence axis and 0 on the other two; the two matrices' block index is 0. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- ONE POINT, over plain variables: if the input block `x0` is sequence `b` of the array `A0` and the two matrix
    blocks are the arrays `A1`, `A2` whole, then the body's value at the block's entry `y` is the result at the
    array entry `i` that has `b` on the sequence axis and `y`'s position and feature. -/
theorem point_value (x0 : Vec Ideal S1x256x2048 .f32) (x1 : Vec Ideal S256x2048 .f32) (x2 : Vec Ideal S2048x256 .f32)
    (A0 : S64x256x2048.Idx → EReal) (A1 : S256x2048.Idx → EReal) (A2 : S2048x256.Idx → EReal) (b : Fin 64)
    (h0 : ∀ (t : Fin 256) (f : Fin 2048), x0 (ix3 (0 : Fin 1) t f) = A0 (ix3 b t f)) (h1 : x1 = A1) (h2 : x2 = A2)
    (y : S1x256x2048.Idx) (i : S64x256x2048.Idx) (hi0 : (i 0).val = b.val) (hi1 : (i 1).val = (y 1).val)
    (hi2 : (i 2).val = (y 2).val) :
    k0_pay1 (F := Ideal) x0 x1 x2 y = Attention.result A0 A1 A2 i := by
  obtain ⟨u, t, f, rfl⟩ : ∃ (u : Fin 1) (t : Fin 256) (f : Fin 2048), y = ix3 u t f := ⟨y 0, y 1, y 2, eq_ix3 y⟩
  obtain rfl : u = 0 := Subsingleton.elim _ _
  have hi : i = ix3 b t f := funext fun a => Fin.ext (by
    match a with
    | ⟨0, _⟩ => exact hi0
    | ⟨1, _⟩ => exact hi1
    | ⟨2, _⟩ => exact hi2)
  subst hi h1 h2
  rw [Payload.payload_apply, Attention.result_apply]
  have hs : (fun t f => x0 (ix3 (0 : Fin 1) t f)) = Attention.seq A0 b := funext fun t => funext fun f => h0 t f
  rw [hs]

/-- WHAT POINT `t` WRITES BACK is block `t` of the result function of the argument arrays as the region finds them. -/
theorem flushed_eq (c : Dev nD) (t : Fin cfg0.N) :
    (dats m 0 c).flushed 3 t
      = ((cfg0.win 3).blk t).view.read (Elt Ideal)
          (Attention.result (V m c main_arg0) (V m c main_arg1) (V m c main_arg2)) := by
  rw [Value.flushed3]
  unfold out0_3
  rw [View.canon_unit_zero zero3]
  simp only [View.ld_unit_zero (S := S1x256x2048) zero3, View.ld_unit_zero (S := S256x2048) zero2,
    View.ld_unit_zero (S := S2048x256) zero2]
  obtain ⟨a0, a1, a2, b0, b1, c0, c1, d0, d1, d2⟩ := index_facts t
  have hN : t.val < 64 := lt_of_lt_of_eq t.isLt (show cfg0.N = 64 from N_0)
  funext y
  show k0_pay1 (iblk m c 0 t) (iblk m c 1 t) (iblk m c 2 t) y
    = Attention.result (V m c main_arg0) (V m c main_arg1) (V m c main_arg2) (((cfg0.win 3).blk t).view.emb y)
  have hy0 : (y 0).val < 1 := (y 0).isLt
  refine point_value _ _ _ _ _ _ ⟨t.val, hN⟩ (fun t' f' => ?_) (funext fun z => ?_) (funext fun z => ?_) y _ ?_ ?_ ?_
  · show V m c main_arg0 (((cfg0.win 0).blk t).view.emb (ix3 (0 : Fin 1) t' f')) = _
    refine congrArg _ (funext fun a => Fin.ext ?_)
    match a with
    | ⟨0, _⟩ => show win0_0.index t (0 : Fin 3) * 1 + 1 * 0 = t.val; omega
    | ⟨1, _⟩ => show win0_0.index t (1 : Fin 3) * 256 + 1 * t'.val = t'.val; omega
    | ⟨2, _⟩ => show win0_0.index t (2 : Fin 3) * 2048 + 1 * f'.val = f'.val; omega
  · show V m c main_arg1 (((cfg0.win 1).blk t).view.emb z) = V m c main_arg1 z
    refine congrArg _ (funext fun a => Fin.ext ?_)
    match a with
    | ⟨0, _⟩ => show win0_1.index t (0 : Fin 2) * 256 + 1 * (z 0).val = (z 0).val; omega
    | ⟨1, _⟩ => show win0_1.index t (1 : Fin 2) * 2048 + 1 * (z 1).val = (z 1).val; omega
  · show V m c main_arg2 (((cfg0.win 2).blk t).view.emb z) = V m c main_arg2 z
    refine congrArg _ (funext fun a => Fin.ext ?_)
    match a with
    | ⟨0, _⟩ => show win0_2.index t (0 : Fin 2) * 2048 + 1 * (z 0).val = (z 0).val; omega
    | ⟨1, _⟩ => show win0_2.index t (1 : Fin 2) * 256 + 1 * (z 1).val = (z 1).val; omega
  · show win0_3.index t (0 : Fin 3) * 1 + 1 * (y 0).val = t.val; omega
  · show win0_3.index t (1 : Fin 3) * 256 + 1 * (y 1).val = (y 1).val; omega
  · show win0_3.index t (2 : Fin 3) * 2048 + 1 * (y 2).val = (y 2).val; omega

/-- An entry of the array is in point `t`'s block iff each coordinate is in the block's range on its axis. -/
theorem mem_block (t : Fin cfg0.N) (i : S64x256x2048.Idx) :
    i ∈ ((cfg0.win 3).blk t).view.set ↔ ∀ a : Fin 3, win0_3.index t a * S1x256x2048.size a ≤ (i a).val
      ∧ (i a).val < win0_3.index t a * S1x256x2048.size a + S1x256x2048.size a := by
  show i ∈ ((View.whole main_v0).slice (win0_3.rect t)).set ↔ _
  rw [View.set_slice_whole, Rect.mem_set_unit]
  exact Iff.rfl

/-- Every entry `(b, t, m)` lies in the block the point `b` writes back. -/
theorem covered (i : S64x256x2048.Idx) :
    ∃ t : Fin cfg0.N, (cfg0.win 3).flush t = true ∧ i ∈ ((cfg0.win 3).blk t).view.set := by
  have h0 : (i 0).val < 64 := (i 0).isLt
  have h1 : (i 1).val < 256 := (i 1).isLt
  have h2 : (i 2).val < 2048 := (i 2).isLt
  obtain ⟨t, ht⟩ : ∃ t : Fin cfg0.N, t.val = (i 0).val :=
    ⟨⟨(i 0).val, lt_of_lt_of_eq h0 (show (64 : ℕ) = cfg0.N from N_0.symm)⟩, rfl⟩
  obtain ⟨-, -, -, -, -, -, -, d0, d1, d2⟩ := index_facts t
  refine ⟨t, flush0_3 t, ?_⟩
  rw [mem_block]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 256 ≤ (i 1).val ∧ (i 1).val < win0_3.index t (1 : Fin 3) * 256 + 256
    omega
  | ⟨2, _⟩ =>
    show win0_3.index t (2 : Fin 3) * 2048 ≤ (i 2).val ∧ (i 2).val < win0_3.index t (2 : Fin 3) * 2048 + 2048
    omega

/-- THE ARRAY after the run is the result function of the argument arrays. -/
theorem final (c : Dev nD) :
    (dats m 0 c).arrAt 3 cfg0.N = Attention.result (V m c main_arg0) (V m c main_arg1) (V m c main_arg2) :=
  (dats m 0 c).arrAt_eq_of_cover 3 _ (fun t _ => flushed_eq m c t) covered

/-- The kernel's run: every weakly fair execution terminates with the result array at `Attention.result` of the
    arguments as launched, and the arguments unchanged. -/
theorem run : θ_run defs (onTc (τ := τ) (main (F := Ideal))) ⟨m, fun _ => 0, ρ⟩ fun r => ∀ c : Dev nD,
      r.2.mem ((c : Thread nD τ).loc main_v0)
          = Attention.result (m ((c : Thread nD τ).loc main_arg0)) (m ((c : Thread nD τ).loc main_arg1))
              (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.ReferenceValue.lean ====
/-
  The reference program computes `Attention.result`: its stages, read one at a time at explicit coordinates.

  Each batched product is the sum over its one contracted coordinate, the batch coordinate carried along; the mask
  the reference builds (row position + 0 ≥ column position, selected between the constants true and false) is the
  causal bit itself; the maximum over the last axis is the fold of `max` over that axis from −∞; the sum over the last
  axis starts from the zero word, which is the real 0; a kept-dimension column broadcast back reads the row's value at
  every column. Stage by stage the values are `proj`, `query`, `dots`, `masked`, `rowMax`, `expo`, the row's
  sum of `expo`, `weight` and `attend` of sequence `b`.
-/
import proofs.«106704_j49632642072718_1_alg».proof.Proof.Gen.ReferenceIdeal.Read
import proofs.«106704_j49632642072718_1_alg».proof.Proof.Attention
import proofs.«106704_j49632642072718_1_alg».proof.Proof.LibRows
import Idealize.ShloMosaic.PureOps.Ideal.Laws

noncomputable section

open scoped BigOperators

namespace Cert.ReferenceIdeal.RefValue

open Cert.ReferenceIdeal Cert.ReferenceIdeal.Gen Cert.ReferenceIdeal.Read Cert.Attention
open Idealize.ShloMosaic Idealize.ShloMosaic.ValueIdx

/-! ## The operand indices of each stage, by coordinates -/

theorem lidx_v0 (b : Fin 64) (t : Fin 256) (k : Fin 256) (c : Fin 2048) : lidx_main_v0 (ix3 b t k) c = ix3 b t c :=
  funext fun a => Fin.ext (by match a with | ⟨0, _⟩ => rfl | ⟨1, _⟩ => rfl | ⟨2, _⟩ => rfl)
theorem ridx_v0 (b : Fin 64) (t : Fin 256) (k : Fin 256) (c : Fin 2048) : ridx_main_v0 (ix3 b t k) c = ix2 k c :=
  funext fun a => Fin.ext (by match a with | ⟨0, _⟩ => rfl | ⟨1, _⟩ => rfl)
theorem lidx_v1 (b : Fin 64) (t : Fin 256) (m : Fin 2048) (k : Fin 256) : lidx_main_v1 (ix3 b t m) k = ix3 b t k :=
  funext fun a => Fin.ext (by match a with | ⟨0, _⟩ => rfl | ⟨1, _⟩ => rfl | ⟨2, _⟩ => rfl)
theorem ridx_v1 (b : Fin 64) (t : Fin 256) (m : Fin 2048) (k : Fin 256) : ridx_main_v1 (ix3 b t m) k = ix2 m k :=
  funext fun a => Fin.ext (by match a with | ⟨0, _⟩ => rfl | ⟨1, _⟩ => rfl)
theorem lidx_v2 (b : Fin 64) (t : Fin 256) (s : Fin 256) (m : Fin 2048) : lidx_main_v2 (ix3 b t s) m = ix3 b t m :=
  funext fun a => Fin.ext (by match a with | ⟨0, _⟩ => rfl | ⟨1, _⟩ => rfl | ⟨2, _⟩ => rfl)
theorem ridx_v2 (b : Fin 64) (t : Fin 256) (s : Fin 256) (m : Fin 2048) : ridx_main_v2 (ix3 b t s) m = ix3 b s m :=
  funext fun a => Fin.ext (by match a with | ⟨0, _⟩ => rfl | ⟨1, _⟩ => rfl | ⟨2, _⟩ => rfl)
theorem idx_mask (b : Fin 64) (t : Fin 256) (s : Fin 256) : idx_main_call1_v1 (ix3 b t s) = ix2 t s :=
  funext fun a => Fin.ext (by match a with | ⟨0, _⟩ => rfl | ⟨1, _⟩ => rfl)
theorem idx_v11 (b : Fin 64) (t : Fin 256) (u : Fin 1) : idx_main_v11 (ix3 b t u) = ix2 b t :=
  funext fun a => Fin.ext (by match a with | ⟨0, _⟩ => rfl | ⟨1, _⟩ => rfl)
theorem idx_v12 (b : Fin 64) (t : Fin 256) (s : Fin 256) : idx_main_v12 (ix3 b t s) = ix3 b t (0 : Fin 1) :=
  funext fun a => Fin.ext (by match a with | ⟨0, _⟩ => rfl | ⟨1, _⟩ => rfl | ⟨2, _⟩ => rfl)
theorem idx_v15 (b : Fin 64) (t : Fin 256) (s : Fin 256) : idx_main_v15 (ix2 b t) s = ix3 b t s :=
  funext fun a => Fin.ext (by match a with | ⟨0, _⟩ => rfl | ⟨1, _⟩ => rfl | ⟨2, _⟩ => rfl)
theorem idx_v16 (b : Fin 64) (t : Fin 256) (u : Fin 1) : idx_main_v16 (ix3 b t u) = ix2 b t :=
  funext fun a => Fin.ext (by match a with | ⟨0, _⟩ => rfl | ⟨1, _⟩ => rfl)
theorem idx_v17 (b : Fin 64) (t : Fin 256) (s : Fin 256) : idx_main_v17 (ix3 b t s) = ix3 b t (0 : Fin 1) :=
  funext fun a => Fin.ext (by match a with | ⟨0, _⟩ => rfl | ⟨1, _⟩ => rfl | ⟨2, _⟩ => rfl)
theorem lidx_v19 (b : Fin 64) (t : Fin 256) (m : Fin 2048) (s : Fin 256) : lidx_main_v19 (ix3 b t m) s = ix3 b t s :=
  funext fun a => Fin.ext (by match a with | ⟨0, _⟩ => rfl | ⟨1, _⟩ => rfl | ⟨2, _⟩ => rfl)
theorem ridx_v19 (b : Fin 64) (t : Fin 256) (m : Fin 2048) (s : Fin 256) : ridx_main_v19 (ix3 b t m) s = ix3 b s m :=
  funext fun a => Fin.ext (by match a with | ⟨0, _⟩ => rfl | ⟨1, _⟩ => rfl | ⟨2, _⟩ => rfl)

/-! ## The mask -/

/-- Adding the zero word changes nothing, and selecting between the bits 1 and 0 on a bit returns that bit: the
    reference's lower-triangle mask at `(t, s)` is the comparison "t ≥ s" of the two position words. -/
theorem tril_bit (p q : BitVec 32) :
    Scalar.select (IntOp.cmpi .sge (IntOp.addi p 0#32) q) (1#1) (0#1) = IntOp.cmpi .sge p q := by
  have h0 : IntOp.addi p 0#32 = p := by unfold IntOp.addi; exact BitVec.add_zero p
  rw [h0]
  rcases BitVec.eq_zero_or_eq_one (IntOp.cmpi .sge p q) with h | h <;> rw [h]
  · exact select_zero _ _
  · exact select_one _ _

theorem mask_at (t s : Fin 256) : val_main_v6 (F := Ideal) (ix2 t s) = causal t s := by
  rw [val_main_v6_apply, val_main_call0_v4_apply, val_main_call0_v2_apply, val_main_call0_v0_apply,
    val_main_call0_v1_apply, val_main_call0_c_apply, val_main_call0_v3_apply, val_main_v5_apply, val_main_c_apply,
    val_main_call0_v5_apply, val_main_call0_c_0_apply]
  exact tril_bit _ _

/-! ## The stages -/

section Stages

variable (x0 : (⟨S64x256x2048, .f32⟩ : BufTy).Contents (Elt Ideal)) (x1 : (⟨S256x2048, .f32⟩ : BufTy).Contents (Elt Ideal))
  (x2 : (⟨S2048x256, .f32⟩ : BufTy).Contents (Elt Ideal))

theorem proj_at (b : Fin 64) (t k : Fin 256) :
    val_main_v0 (F := Ideal) x0 x1 (ix3 b t k) = proj (seq x0 b) (mat x1) t k := by
  rw [val_main_v0_apply]
  simp only [lidx_v0, ridx_v0]
  rfl

theorem query_at (b : Fin 64) (t : Fin 256) (m : Fin 2048) :
    val_main_v1 (F := Ideal) x0 x1 x2 (ix3 b t m) = query (seq x0 b) (mat x1) (mat x2) t m := by
  rw [val_main_v1_apply]
  simp only [lidx_v1, ridx_v1, proj_at]
  rfl

theorem dots_at (b : Fin 64) (t s : Fin 256) :
    val_main_v2 (F := Ideal) x0 x1 x2 (ix3 b t s) = dots (seq x0 b) (mat x1) (mat x2) t s := by
  rw [val_main_v2_apply]
  simp only [lidx_v2, ridx_v2, query_at]
  rfl

theorem scaled_at (b : Fin 64) (t s : Fin 256) :
    val_main_v4 (F := Ideal) x0 x1 x2 (ix3 b t s)
      = dots (seq x0 b) (mat x1) (mat x2) t s * Ideal.ofBits .f32 0x3CB504F3#32 := by
  rw [val_main_v4_apply, dots_at, val_main_v3_apply, val_main_cst_apply]
  rfl

theorem masked_at (b : Fin 64) (t s : Fin 256) :
    val_main_v7 (F := Ideal) x0 x1 x2 (ix3 b t s) = masked (seq x0 b) (mat x1) (mat x2) t s := by
  rw [val_main_v7_apply, val_main_call1_v1_apply, idx_mask, mask_at, scaled_at, val_main_call1_v2_apply,
    val_main_call1_v0_apply, val_main_cst_0_apply]
  rfl

theorem lastMax_at (b : Fin 64) (t : Fin 256) :
    val_main_v8 (F := Ideal) x0 x1 x2 (ix2 b t)
      = (Finset.univ : Finset (Fin 256)).fold max (Ideal.ofBits .f32 0xFF800000#32)
          fun s => masked (seq x0 b) (mat x1) (mat x2) t s := by
  unfold val_main_v8
  refine (hostLastMax_apply _ _ reducesTo_S64x256x256_S64x256_d2 (by decide) h_S_ b t).trans ?_
  simp only [masked_at]
  rfl

theorem rowMax_at (b : Fin 64) (t : Fin 256) :
    val_main_v10 (F := Ideal) x0 x1 x2 (ix2 b t) = rowMax (masked (seq x0 b) (mat x1) (mat x2)) t := by
  rw [val_main_v10_apply, val_main_v9_apply, val_main_cst_2_apply, lastMax_at]
  rfl

theorem rowMax_bcast_at (b : Fin 64) (t s : Fin 256) :
    val_main_v12 (F := Ideal) x0 x1 x2 (ix3 b t s) = rowMax (masked (seq x0 b) (mat x1) (mat x2)) t := by
  rw [val_main_v12_apply, idx_v12, val_main_v11_apply, idx_v11, rowMax_at]

theorem expo_at (b : Fin 64) (t s : Fin 256) :
    val_main_v14 (F := Ideal) x0 x1 x2 (ix3 b t s) = expo (masked (seq x0 b) (mat x1) (mat x2)) t s := by
  rw [val_main_v14_apply, val_main_v13_apply, masked_at, rowMax_bcast_at]
  rfl

theorem rowSum_at (b : Fin 64) (t : Fin 256) :
    val_main_v15 (F := Ideal) x0 x1 x2 (ix2 b t) = ∑ s : Fin 256, expo (masked (seq x0 b) (mat x1) (mat x2)) t s := by
  rw [val_main_v15_apply, val_main_cst_3_apply]
  simp only [idx_v15, expo_at]
  show Ideal.ofBits .f32 0x00000000#32 + _ = _
  rw [Ideal.ofBits_zero_f32, zero_add]

theorem rowSum_bcast_at (b : Fin 64) (t s : Fin 256) :
    val_main_v17 (F := Ideal) x0 x1 x2 (ix3 b t s) = ∑ s' : Fin 256, expo (masked (seq x0 b) (mat x1) (mat x2)) t s' := by
  rw [val_main_v17_apply, idx_v17, val_main_v16_apply, idx_v16, rowSum_at]

theorem weight_at (b : Fin 64) (t s : Fin 256) :
    val_main_v18 (F := Ideal) x0 x1 x2 (ix3 b t s) = weight (seq x0 b) (mat x1) (mat x2) t s := by
  rw [val_main_v18_apply, expo_at, rowSum_bcast_at]
  rfl

theorem attend_at (b : Fin 64) (t : Fin 256) (m : Fin 2048) :
    val_main_v19 (F := Ideal) x0 x1 x2 (ix3 b t m) = attend (seq x0 b) (mat x1) (mat x2) t m := by
  rw [val_main_v19_apply]
  simp only [lidx_v19, ridx_v19, weight_at]
  rfl

/-- THE REFERENCE'S RESULT is `Attention.result` of its three arguments. -/
theorem reference_is_result : val_main_v19 (F := Ideal) x0 x1 x2 = Attention.result x0 x1 x2 := by
  funext i
  obtain ⟨b, t, m, rfl⟩ : ∃ (b : Fin 64) (t : Fin 256) (m : Fin 2048), i = ix3 b t m := ⟨i 0, i 1, i 2, eq_ix3 i⟩
  exact attend_at x0 x1 x2 b t m

end Stages

end Cert.ReferenceIdeal.RefValue

end
-- ==== Proof.lean ====
/-
  A fused causal self-attention kernel against its einsum reference, equal over the extended reals.

  Inputs: `x` (64 sequences × 256 positions × 2048 features), `Wq` (256 × 2048), `Wkt` (2048 × 256). Both programs
  compute, for every sequence `X`,
      softmax_rows ( causal ( ((X · Wqᵀ) · Wktᵀ) · Xᵀ · σ ) ) · X ,
  where σ is the same 32-bit word on both sides, the causal mask keeps column `s` of row `t` when `s ≤ t` and puts −∞
  elsewhere, and the softmax shifts each row by its maximum before exponentiating (`Attention.result`, Proof/Attention.lean).
  The kernel does one sequence per grid point, with the four products as matrix products into a zero accumulator and
  the operands narrowed to a shorter float format first (the identity on extended reals); the reference does all
  sequences at once with batched products. The products associate the same way on both sides, so the two results are
  the same sums over the same finite index sets, term by term: no law of arithmetic beyond re-indexing a finite sum is
  used, and the precondition (finite inputs) is never opened.

  • Proof/KernelPayload.lean reads the kernel body at one entry of a block; Proof/KernelArray.lean puts the 64 blocks
    together into the result array (over the generated run of the kernel with its result array named).
  • Proof/ReferenceValue.lean reads the reference's stages, one operation at a time, down to the same function (over the
    generated run of the reference and its read-at-an-index lemmas).
  • The three frames are the generated ones (the reference's is its generated run with the result dropped); the kernel's
    idealization rewrote nothing, so `preserves` is `True`.
-/
import proofs.«106704_j49632642072718_1_alg».proof.Defs
import proofs.«106704_j49632642072718_1_alg».proof.Proof.Gen.Kernel
import proofs.«106704_j49632642072718_1_alg».proof.Proof.Gen.Kernel.Skeleton
import proofs.«106704_j49632642072718_1_alg».proof.Proof.Gen.Kernel.Launch
import proofs.«106704_j49632642072718_1_alg».proof.Proof.Gen.Kernel.Points
import proofs.«106704_j49632642072718_1_alg».proof.Proof.Gen.Kernel.Frame
import proofs.«106704_j49632642072718_1_alg».proof.Proof.Gen.KernelIdeal
import proofs.«106704_j49632642072718_1_alg».proof.Proof.Gen.KernelIdeal.Skeleton
import proofs.«106704_j49632642072718_1_alg».proof.Proof.Gen.KernelIdeal.Launch
import proofs.«106704_j49632642072718_1_alg».proof.Proof.Gen.KernelIdeal.Points
import proofs.«106704_j49632642072718_1_alg».proof.Proof.Gen.KernelIdeal.Frame
import proofs.«106704_j49632642072718_1_alg».proof.Proof.Gen.ReferenceIdeal
import proofs.«106704_j49632642072718_1_alg».proof.Proof.Gen.Pre_finite_inputs
import proofs.«106704_j49632642072718_1_alg».proof.Proof.Gen.KernelIdeal.Value
import proofs.«106704_j49632642072718_1_alg».proof.Proof.Gen.ReferenceIdeal.Run
import proofs.«106704_j49632642072718_1_alg».proof.Proof.Gen.ReferenceIdeal.Read
import proofs.«106704_j49632642072718_1_alg».proof.Proof.KernelArray
import proofs.«106704_j49632642072718_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories that agree on the three arguments, the kernel's result array and the reference's are both
    `Attention.result` of those arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.reference_is_result, (hagree c).1,
    (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
